-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x256 .f32) (main_arg2 : FVec F S256x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S512x4096 : Shape := ⟨2, ![512, 4096]⟩
abbrev S512x256 : Shape := ⟨2, ![512, 256]⟩
abbrev S1x4096 : Shape := ⟨2, ![1, 4096]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S4096x256, .f32⟩
  | .local _ .vmem, ⟨4, _⟩ => ⟨S4096, .f32⟩
  | .local _ .vmem, ⟨5, _⟩ => ⟨S512x4096, .f32⟩
  | .local _ .vmem, ⟨6, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S256x4096 : Shape := ⟨2, ![256, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x256_S256x4096_S4096x4096_1_0_0_1_n_n_wf : DotDims.WF S4096x256 S256x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibRowsByRows.lean ====
/-
  A matrix product in which BOTH operands are contracted along their second axis: the [M, K] operand's row p against
  the [C, K] operand's row q, that is  A · Bᵀ. Read at the extended reals, into an accumulator of zeros, the element
  (p, q) of the result is the plain sum  ∑ k, A (p, k) * B (q, k).

  The lemma is stated for any dimension record of those shapes whose operand indices are the expected ones — four
  facts about the record (`hl0 … hr1`) that a program's literal record proves by unfolding; nothing else of the record
  is used. The one contracted axis is re-indexed by its coordinate `k : Fin K`.
-/
import Idealize.ShloMosaic.Lib.ValueIdx
import Idealize.ShloMosaic.PureOps.Ideal.Laws

noncomputable section

open scoped BigOperators

namespace RowsByRows

open Idealize.ShloMosaic Idealize.ShloMosaic.ValueIdx

/-- Element (p, q) of  A · Bᵀ  accumulated into zeros is  ∑ k, A (p, k) * B (q, k). -/
theorem matmul_zero_apply {M K C : Nat} {φ₁ φ₂ : FTy} (D : DotDims ⟨2, ![M, K]⟩ ⟨2, ![C, K]⟩ ⟨2, ![M, C]⟩)
    (hr : D.contr.rank = 1) (hs : D.contr.size ⟨0, by omega⟩ = K)
    (hl0 : ∀ (j : (⟨2, ![M, C]⟩ : Shape).Idx) (k : D.contr.Idx), (D.lhsIdx j k 0).val = (j 0).val)
    (hl1 : ∀ (j : (⟨2, ![M, C]⟩ : Shape).Idx) (k : D.contr.Idx), (D.lhsIdx j k 1).val = (k ⟨0, by omega⟩).val)
    (hr0 : ∀ (j : (⟨2, ![M, C]⟩ : Shape).Idx) (k : D.contr.Idx), (D.rhsIdx j k 0).val = (j 1).val)
    (hr1 : ∀ (j : (⟨2, ![M, C]⟩ : Shape).Idx) (k : D.contr.Idx), (D.rhsIdx j k 1).val = (k ⟨0, by omega⟩).val)
    (prec : Option ContractPrecision) (A : FVec Ideal ⟨2, ![M, K]⟩ φ₁) (B : FVec Ideal ⟨2, ![C, K]⟩ φ₂)
    (p : Fin M) (q : Fin C) :
    FloatOps.matmul D prec A B (constant ⟨2, ![M, C]⟩ .f32 0x00000000#32) (ix2 p q) = ∑ k : Fin K, A (ix2 p k) * B (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end RowsByRows

end
-- ==== Proof.BlockValue.lean ====
/-
  What the kernel body computes on one block of 512 rows, entry by entry, over the extended reals.

  From a block X of x (512 rows, 4096 columns), all of V (256 × 4096), all of U (4096 × 256) and the bias row, the
  body forms  H = X · Vᵀ  (512 × 256: row p of X against row r of V), then  H · Uᵀ  (512 × 4096: row p of H against
  row q of U), and adds bias q to every row. So the stored entry (p, q) is

      ∑ r, (∑ i, X (p, i) * V (r, i)) * U (q, r)  +  bias q.

  Both products accumulate into zeros, so each is a plain sum over its contracted axis; the bias reaches entry
  (p, q) through a cast of the row to 1 × 4096 and a broadcast of that one row to all 512.
-/
import proofs.«140116_j35192962023845_2_alg».proof.Proof.Gen.KernelIdeal.Skeleton
import proofs.«140116_j35192962023845_2_alg».proof.Proof.LibRowsByRows
import Idealize.ShloMosaic.Lib.ValueLayout

noncomputable section

open scoped BigOperators

namespace Cert.KernelIdeal.BlockValue

open Cert.KernelIdeal Cert.KernelIdeal.Gen Idealize.ShloMosaic Idealize.ShloMosaic.ValueIdx

/-! ## The first product's dimension record: X's columns against V's columns -/

local notation "dXV" => dot_S512x4096_S256x4096_S512x256_1_1_0_0_n_n
local notation "dHU" => dot_S512x256_S4096x256_S512x4096_1_1_0_0_n_n

theorem xv_lhs0 (j : S512x256.Idx) (k : (dXV).contr.Idx) : ((dXV).lhsIdx j k 0).val = (j 0).val := by
  unfold DotDims.lhsIdx
  rw [dif_neg (show ¬(0 : Fin S512x4096.rank) ∈ (dXV).lhsBatch by decide),
    dif_pos (show (0 : Fin S512x4096.rank) ∈ (dXV).lhsNonContracting by decide)]
  rfl
theorem xv_lhs1 (j : S512x256.Idx) (k : (dXV).contr.Idx) : ((dXV).lhsIdx j k 1).val = (k ⟨0, by decide⟩).val :=
  (dXV).lhsIdx_val_of_single rfl j k
theorem xv_rhs0 (j : S512x256.Idx) (k : (dXV).contr.Idx) : ((dXV).rhsIdx j k 0).val = (j 1).val := by
  unfold DotDims.rhsIdx
  rw [dif_neg (show ¬(0 : Fin S256x4096.rank) ∈ (dXV).rhsBatch by decide),
    dif_pos (show (0 : Fin S256x4096.rank) ∈ (dXV).rhsNonContracting by decide)]
  rfl
theorem xv_rhs1 (j : S512x256.Idx) (k : (dXV).contr.Idx) : ((dXV).rhsIdx j k 1).val = (k ⟨0, by decide⟩).val :=
  (dXV).rhsIdx_val_of_single rfl j k

/-- Entry (p, r) of the first product: row p of the block against row r of V. -/
theorem rank_apply (X : FVec Ideal S512x4096 .f32) (V : FVec Ideal S256x4096 .f32) (p : Fin 512) (r : Fin 256) :
    matmul (F := Ideal) (φ₁ := .f32) (φ₂ := .f32) dXV (some .fp32) X V (constant S512x256 .f32 0x00000000#32) (ix2 p r) = ∑ i : Fin 4096, X (ix2 p i) * V (ix2 r i) :=
  RowsByRows.matmul_zero_apply dXV rfl rfl xv_lhs0 xv_lhs1 xv_rhs0 xv_rhs1 _ X V p r

/-! ## The second product's record: H's columns against U's columns -/

theorem hu_lhs0 (j : S512x4096.Idx) (k : (dHU).contr.Idx) : ((dHU).lhsIdx j k 0).val = (j 0).val := by
  unfold DotDims.lhsIdx
  rw [dif_neg (show ¬(0 : Fin S512x256.rank) ∈ (dHU).lhsBatch by decide),
    dif_pos (show (0 : Fin S512x256.rank) ∈ (dHU).lhsNonContracting by decide)]
  rfl
theorem hu_lhs1 (j : S512x4096.Idx) (k : (dHU).contr.Idx) : ((dHU).lhsIdx j k 1).val = (k ⟨0, by decide⟩).val :=
  (dHU).lhsIdx_val_of_single rfl j k
theorem hu_rhs0 (j : S512x4096.Idx) (k : (dHU).contr.Idx) : ((dHU).rhsIdx j k 0).val = (j 1).val := by
  unfold DotDims.rhsIdx
  rw [dif_neg (show ¬(0 : Fin S4096x256.rank) ∈ (dHU).rhsBatch by decide),
    dif_pos (show (0 : Fin S4096x256.rank) ∈ (dHU).rhsNonContracting by decide)]
  rfl
theorem hu_rhs1 (j : S512x4096.Idx) (k : (dHU).contr.Idx) : ((dHU).rhsIdx j k 1).val = (k ⟨0, by decide⟩).val :=
  (dHU).rhsIdx_val_of_single rfl j k

/-- Entry (p, q) of the second product: row p of H against row q of U. -/
theorem out_apply (H : FVec Ideal S512x256 .f32) (U : FVec Ideal S4096x256 .f32) (p : Fin 512) (q : Fin 4096) :
    matmul (F := Ideal) (φ₁ := .f32) (φ₂ := .f32) dHU (some .fp32) H U (constant S512x4096 .f32 0x00000000#32) (ix2 p q) = ∑ r : Fin 256, H (ix2 p r) * U (ix2 q r) :=
  RowsByRows.matmul_zero_apply dHU rfl rfl hu_lhs0 hu_lhs1 hu_rhs0 hu_rhs1 _ H U p q

/-! ## The bias row under every row of the block -/

/-- The bias, cast to one row and broadcast to 512 rows, read at (p, q) is bias q. -/
theorem bias_apply (b : FVec Ideal S4096 .f32) (p : Fin 512) (q : Fin 4096) :
    broadcastTo S512x4096 (shapeCast S1x4096 b shapeCasts_S4096_S1x4096) broadcasts_S1x4096_S512x4096 (ix2 p q) = b (ix1 q) :=
  (broadcastTo_1b_ab_apply _ broadcasts_S1x4096_S512x4096 p q).trans (shapeCast_a_1a_apply b shapeCasts_S4096_S1x4096 0 q)

/-! ## The stored block -/

/-- THE BODY'S STORE, entry (p, q): the rank-256 contraction of (row p of the block against V) with row q of U,
    plus bias q. -/
theorem pay_apply (X : FVec Ideal S512x4096 .f32) (V : FVec Ideal S256x4096 .f32) (U : FVec Ideal S4096x256 .f32)
    (b : FVec Ideal S4096 .f32) (p : Fin 512) (q : Fin 4096) :
    k0_pay1 (F := Ideal) X V U b (ix2 p q)
      = (∑ r : Fin 256, (∑ i : Fin 4096, X (ix2 p i) * V (ix2 r i)) * U (ix2 q r)) + b (ix1 q) := by
  unfold k0_pay1
  refine (addf_apply _ _ _).trans ?_
  rw [bias_apply, out_apply]
  simp only [rank_apply]

end Cert.KernelIdeal.BlockValue

end
-- ==== Proof.LibTripleProduct.lean ====
/-
  A product of three matrices can be bracketed either way: over the extended reals, for factors whose entries are
  all real numbers,

      ∑ r, (∑ i, x i * v r i) * u r  =  ∑ i, x i * (∑ r, u r * v r i).

  On the extended reals themselves the identity can fail (multiplication does not distribute over a sum that
  meets an infinity), so the entries are asked to be real; the proof moves to ℝ, where the two sides are the same
  double sum read in the two orders. Nothing here mentions a program: the index types are abstract finite types.
-/
import Mathlib.Data.EReal.Inv
import Mathlib.Algebra.BigOperators.Group.Finset.Basic
import Mathlib.Algebra.BigOperators.Ring.Finset
import Mathlib.Tactic.Ring

open scoped BigOperators

namespace TripleProduct

/-- A finite sum of real numbers, each read as an extended real, is the real sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over the reals: the double sum of x i · v r i · u r, summed over i first and then r, or over r first and then i. -/
theorem real_assoc {I R : Type*} [Fintype I] [Fintype R] (x : I → ℝ) (u : R → ℝ) (v : R → I → ℝ) :
    ∑ r, (∑ i, x i * v r i) * u r = ∑ i, x i * ∑ r, u r * v r i := by
  simp only [Finset.sum_mul, Finset.mul_sum]
  rw [Finset.sum_comm]
  exact Finset.sum_congr rfl fun i _ => Finset.sum_congr rfl fun r _ => by ring

/-- THE LAW on the extended reals, for real entries: contracting x with v first and the result with u, or u with
    v first and x with the result, is the same number. -/
theorem assoc {I R : Type*} [Fintype I] [Fintype R] (x : I → EReal) (u : R → EReal) (v : R → I → EReal)
    (hx : ∀ i, ∃ a : ℝ, x i = a) (hu : ∀ r, ∃ a : ℝ, u r = a) (hv : ∀ r i, ∃ a : ℝ, v r i = a) :
    ∑ r, (∑ i, x i * v r i) * u r = ∑ i, x i * ∑ r, u r * v r i := by
  choose xr hxr using hx
  choose ur hur using hu
  choose vr hvr using hv
  simp only [hxr, hur, hvr, ← EReal.coe_mul, coe_sum]
  exact congrArg _ (real_assoc xr ur vr)

end TripleProduct
-- ==== Proof.LowRank.lean ====
/-
  The low-rank linear layer as one function of its four arrays, in the two orders the two programs use, and the
  law that makes them one function.

  With x : 8192 × 4096, U : 4096 × 256, V : 256 × 4096 and a bias of 4096 entries, the layer's output at (n, o) is
  x's row n against row o of the 4096 × 4096 matrix W = U · V, plus bias o:

      viaWeight :  ∑ i, x (n, i) * (∑ r, U (o, r) * V (r, i))  +  bias o        (W formed first)
      viaRank   :  ∑ r, (∑ i, x (n, i) * V (r, i)) * U (o, r)  +  bias o        (x · Vᵀ formed first)

  The two agree when every entry of x, U and V is a real number — the bracketing of a triple product; the bias is
  added to both and may be any extended real.
-/
import proofs.«140116_j35192962023845_2_alg».proof.Proof.LibTripleProduct
import Idealize.ShloMosaic.Lib.ValueIdx

noncomputable section

open scoped BigOperators

namespace LowRank

open Idealize.ShloMosaic Idealize.ShloMosaic.ValueIdx

abbrev XIdx := (⟨2, ![8192, 4096]⟩ : Shape).Idx
abbrev UIdx := (⟨2, ![4096, 256]⟩ : Shape).Idx
abbrev VIdx := (⟨2, ![256, 4096]⟩ : Shape).Idx
abbrev BIdx := (⟨1, ![4096]⟩ : Shape).Idx

/-- Output (n, o) with x · Vᵀ formed first: the rank-256 intermediate of row n, contracted with row o of U. -/
def viaRankAt (x : XIdx → EReal) (U : UIdx → EReal) (V : VIdx → EReal) (b : BIdx → EReal) (n : Fin 8192) (o : Fin 4096) : EReal :=
  (∑ r : Fin 256, (∑ i : Fin 4096, x (ix2 n i) * V (ix2 r i)) * U (ix2 o r)) + b (ix1 o)

/-- Output (n, o) with W = U · V formed first: row n of x against column-o-of-Wᵀ, that is row o of W. -/
def viaWeightAt (x : XIdx → EReal) (U : UIdx → EReal) (V : VIdx → EReal) (b : BIdx → EReal) (n : Fin 8192) (o : Fin 4096) : EReal :=
  (∑ i : Fin 4096, x (ix2 n i) * ∑ r : Fin 256, U (ix2 o r) * V (ix2 r i)) + b (ix1 o)

/-- The whole output array, x · Vᵀ first. -/
def viaRank (x : XIdx → EReal) (U : UIdx → EReal) (V : VIdx → EReal) (b : BIdx → EReal) : XIdx → EReal :=
  fun j => viaRankAt x U V b (j 0) (j 1)

/-- The whole output array, W first. -/
def viaWeight (x : XIdx → EReal) (U : UIdx → EReal) (V : VIdx → EReal) (b : BIdx → EReal) : XIdx → EReal :=
  fun j => viaWeightAt x U V b (j 0) (j 1)

/-- THE LAW: for real x, U, V the two orders give the same output, entry by entry. -/
theorem viaRank_eq_viaWeight (x : XIdx → EReal) (U : UIdx → EReal) (V : VIdx → EReal) (b : BIdx → EReal)
    (hx : ∀ j, ∃ a : ℝ, x j = a) (hU : ∀ j, ∃ a : ℝ, U j = a) (hV : ∀ j, ∃ a : ℝ, V j = a) :
    viaRank x U V b = viaWeight x U V b := by
  funext j
  unfold viaRank viaWeight viaRankAt viaWeightAt
  exact congrArg (· + b (ix1 (j 1)))
    (TripleProduct.assoc (fun i : Fin 4096 => x (ix2 (j 0) i)) (fun r : Fin 256 => U (ix2 (j 1) r))
      (fun (r : Fin 256) (i : Fin 4096) => V (ix2 r i)) (fun _ => hx _) (fun _ => hU _) (fun _ _ => hV _))

end LowRank

end
-- ==== Proof.KernelArray.lean ====
/-
  From blocks of 512 rows to the whole output array.

  The grid has 16 points; point t takes rows 512·t … 512·t + 511 of x (all 4096 columns) and all of V, U and the
  bias, and writes rows 512·t … 512·t + 511 of the output. Entry (p, q) of what point t writes is the body's stored
  entry (p, q) of those blocks, which is the layer — x · Vᵀ formed first — at row 512·t + p and column q of the
  whole arrays. The 16 blocks of rows tile the 8192 rows (row R lies in block R / 512), so after the run the output
  array is `LowRank.viaRank` of the four argument arrays.
-/
import proofs.«140116_j35192962023845_2_alg».proof.Proof.Gen.KernelIdeal.Value
import proofs.«140116_j35192962023845_2_alg».proof.Proof.BlockValue
import proofs.«140116_j35192962023845_2_alg».proof.Proof.LowRank

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The index maps over the 16 grid points: x's block of rows moves with the output's, its column block is 0; V, U and
    the bias are always block 0; the output's row block is at most 15 and its column block is 0. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) ≤ 15 ∧ win0_4.index t (1 : Fin 2) = 0 :=
  (by decide +kernel : ∀ t : Fin grid0.N, _)

/-- Every one of the 16 row blocks is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-! ## Where the blocks at point t sit in the arrays -/

/-- The output's entry (p, q) of point t's block is the array's entry (R, q) for one row R, and the same R is the
    row of x that entry (p, i) of x's block at t reads. -/
theorem rows_at (t : Fin cfg0.N) (p : Fin 512) :
    ∃ R : Fin 8192, (∀ q : Fin 4096, ((cfg0.win 4).blk t).view.emb (ix2 p q) = ix2 R q)
      ∧ ∀ i : Fin 4096, ((cfg0.win 0).blk t).view.emb (ix2 p i) = ix2 R i := by
  obtain ⟨e00, e01, -, -, -, -, -, e40, e41⟩ := idx_facts t
  have hp : p.val < 512 := p.isLt
  refine ⟨⟨win0_4.index t (0 : Fin 2) * 512 + p.val, by omega⟩, fun q => ?_, fun i => ?_⟩
  · funext a; apply Fin.ext
    match a with
    | ⟨0, _⟩ => show win0_4.index t (0 : Fin 2) * 512 + 1 * p.val = win0_4.index t (0 : Fin 2) * 512 + p.val; omega
    | ⟨1, _⟩ => show win0_4.index t (1 : Fin 2) * 4096 + 1 * q.val = q.val; omega
  · funext a; apply Fin.ext
    match a with
    | ⟨0, _⟩ => show win0_0.index t (0 : Fin 2) * 512 + 1 * p.val = win0_4.index t (0 : Fin 2) * 512 + p.val; omega
    | ⟨1, _⟩ => show win0_0.index t (1 : Fin 2) * 4096 + 1 * i.val = i.val; omega

/-- V's block at any point is all of V. -/
theorem v_at (t : Fin cfg0.N) (r : Fin 256) (i : Fin 4096) : ((cfg0.win 1).blk t).view.emb (ix2 r i) = ix2 r i := by
  obtain ⟨-, -, e10, e11, -, -, -, -, -⟩ := idx_facts t
  funext a; apply Fin.ext
  match a with
  | ⟨0, _⟩ => show win0_1.index t (0 : Fin 2) * 256 + 1 * r.val = r.val; omega
  | ⟨1, _⟩ => show win0_1.index t (1 : Fin 2) * 4096 + 1 * i.val = i.val; omega

/-- U's block at any point is all of U. -/
theorem u_at (t : Fin cfg0.N) (q : Fin 4096) (r : Fin 256) : ((cfg0.win 2).blk t).view.emb (ix2 q r) = ix2 q r := by
  obtain ⟨-, -, -, -, e20, e21, -, -, -⟩ := idx_facts t
  funext a; apply Fin.ext
  match a with
  | ⟨0, _⟩ => show win0_2.index t (0 : Fin 2) * 4096 + 1 * q.val = q.val; omega
  | ⟨1, _⟩ => show win0_2.index t (1 : Fin 2) * 256 + 1 * r.val = r.val; omega

/-- The bias block at any point is the whole bias. -/
theorem b_at (t : Fin cfg0.N) (q : Fin 4096) : ((cfg0.win 3).blk t).view.emb (ix1 q) = ix1 q := by
  obtain ⟨-, -, -, -, -, -, e30, -, -⟩ := idx_facts t
  funext a; apply Fin.ext
  match a with
  | ⟨0, _⟩ => show win0_3.index t (0 : Fin 1) * 4096 + 1 * q.val = q.val; omega

/-! ## The blocks at point t, read off the arrays -/

/-- x's block at t, entry (p, i), is x at (R, i) when the block's row p is the array's row R. -/
theorem x_blk (c : Dev nD) (t : Fin cfg0.N) (p : Fin 512) (R : Fin 8192)
    (hR : ∀ i : Fin 4096, ((cfg0.win 0).blk t).view.emb (ix2 p i) = ix2 R i) (i : Fin 4096) :
    iblk m c 0 t (ix2 p i) = V m c main_arg0 (ix2 R i) := by
  show V m c main_arg0 (((cfg0.win 0).blk t).view.emb (ix2 p i)) = _
  rw [hR i]

/-- V's block at t is V. -/
theorem v_blk (c : Dev nD) (t : Fin cfg0.N) (r : Fin 256) (i : Fin 4096) :
    iblk m c 1 t (ix2 r i) = V m c main_arg2 (ix2 r i) := by
  show V m c main_arg2 (((cfg0.win 1).blk t).view.emb (ix2 r i)) = _
  rw [v_at t r i]

/-- U's block at t is U. -/
theorem u_blk (c : Dev nD) (t : Fin cfg0.N) (q : Fin 4096) (r : Fin 256) :
    iblk m c 2 t (ix2 q r) = V m c main_arg1 (ix2 q r) := by
  show V m c main_arg1 (((cfg0.win 2).blk t).view.emb (ix2 q r)) = _
  rw [u_at t q r]

/-- The bias block at t is the bias. -/
theorem b_blk (c : Dev nD) (t : Fin cfg0.N) (q : Fin 4096) :
    iblk m c 3 t (ix1 q) = V m c main_arg3 (ix1 q) := by
  show V m c main_arg3 (((cfg0.win 3).blk t).view.emb (ix1 q)) = _
  rw [b_at t q]

/-! ## What a point writes back -/

/-- Entry (p, q) of the body's store at point t is the layer at (R, q), R the array's row of the block's row p. -/
theorem stored_at (c : Dev nD) (t : Fin cfg0.N) (p : Fin 512) (q : Fin 4096) (R : Fin 8192)
    (hR : ∀ i : Fin 4096, ((cfg0.win 0).blk t).view.emb (ix2 p i) = ix2 R i) :
    k0_pay1 (F := Ideal) (iblk m c 0 t) (iblk m c 1 t) (iblk m c 2 t) (iblk m c 3 t) (ix2 p q)
      = LowRank.viaRankAt (V m c main_arg0) (V m c main_arg1) (V m c main_arg2) (V m c main_arg3) R q := by
  refine (BlockValue.pay_apply (iblk m c 0 t) (iblk m c 1 t) (iblk m c 2 t) (iblk m c 3 t) p q).trans ?_
  simp only [x_blk m c t p R hR, v_blk m c t, u_blk m c t, b_blk m c t]
  rfl

/-- WHAT POINT t WRITES BACK is block t of the layer (x · Vᵀ formed first) of the argument arrays. -/
theorem flushed_eq (c : Dev nD) (t : Fin cfg0.N) :
    (dats m 0 c).flushed 4 t = ((cfg0.win 4).blk t).view.read (Elt Ideal)
      (LowRank.viaRank (V m c main_arg0) (V m c main_arg1) (V m c main_arg2) (V m c main_arg3)) := by
  rw [Value.flushed4]
  unfold out0_4
  rw [View.canon_unit_zero zeros2]
  simp only [View.ld_unit_zero (S := S512x4096) zeros2, View.ld_unit_zero (S := S256x4096) zeros2,
    View.ld_unit_zero (S := S4096x256) zeros2, View.ld_unit_zero (S := S4096) zeros1]
  funext y
  obtain ⟨p, q, rfl⟩ : ∃ (p : Fin 512) (q : Fin 4096), y = ix2 p q := ⟨y 0, y 1, eq_ix2 y⟩
  obtain ⟨R, hout, hx⟩ := rows_at t p
  show k0_pay1 (F := Ideal) (iblk m c 0 t) (iblk m c 1 t) (iblk m c 2 t) (iblk m c 3 t) (ix2 p q)
    = LowRank.viaRank (V m c main_arg0) (V m c main_arg1) (V m c main_arg2) (V m c main_arg3) (((cfg0.win 4).blk t).view.emb (ix2 p q))
  rw [hout q]
  exact stored_at m c t p q R hx

/-! ## The blocks tile the array -/

/-- An index of the output array is in point t's block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v0).slice (win0_4.rect t)).set ↔ _
  rw [View.set_slice_whole, Rect.mem_set_unit]
  exact Iff.rfl

/-- Every index of the output array is in some point's block: row R in block R / 512. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 4096 ≤ (i 1).val ∧ (i 1).val < win0_4.index t (1 : Fin 2) * 4096 + 4096; omega

/-- THE OUTPUT ARRAY after the run is the layer, x · Vᵀ formed first, of the argument arrays as launched. -/
theorem final (c : Dev nD) : (dats m 0 c).arrAt 4 cfg0.N
    = LowRank.viaRank (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: it terminates with the output array at the layer of the arguments, the arguments unchanged. -/
theorem run : θ_run defs (onTc (τ := τ) (main (F := Ideal))) ⟨m, fun _ => 0, ρ⟩ fun r => ∀ c : Dev nD,
      r.2.mem ((c : Thread nD τ).loc main_v0)
        = LowRank.viaRank (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.ReferenceValue.lean ====
/-
  The reference computes the low-rank layer with the weight formed first.

  Its six host operations are: W = U · V (4096 × 4096), Wᵀ, x · Wᵀ, the bias as one row, that row under all 8192
  rows, and the sum. Read at output (n, o): the product x · Wᵀ is ∑ i, x (n, i) * Wᵀ (i, o), Wᵀ (i, o) is W (o, i),
  and W (o, i) is ∑ r, U (o, r) * V (r, i); the two broadcasts hand bias o to every row. That is
  `LowRank.viaWeight` at (n, o).
-/
import proofs.«140116_j35192962023845_2_alg».proof.Proof.Gen.ReferenceIdeal.Read
import proofs.«140116_j35192962023845_2_alg».proof.Proof.LowRank

noncomputable section

open scoped BigOperators

namespace Cert.ReferenceIdeal.RefValue

open Cert.ReferenceIdeal Cert.ReferenceIdeal.Read Idealize.ShloMosaic Idealize.ShloMosaic.ValueIdx

/-- Row n of x at column i: the left operand of x · Wᵀ at output (n, o) and contraction position i. -/
theorem x_idx (n : Fin 8192) (o : Fin 4096) (i : Fin 4096) : lidx_main_v2 (ix2 n o) i = ix2 n i :=
  funext fun a => Fin.ext (by match a with | ⟨0, _⟩ => rfl | ⟨1, _⟩ => rfl)

/-- Wᵀ (i, o) is W (o, i), whose r-th term takes U at (o, r) … -/
theorem u_idx (n : Fin 8192) (o : Fin 4096) (i : Fin 4096) (r : Fin 256) :
    lidx_main_v0 (idx_main_v1 (ridx_main_v2 (ix2 n o) i)) r = ix2 o r :=
  funext fun a => Fin.ext (by match a with | ⟨0, _⟩ => rfl | ⟨1, _⟩ => rfl)

/-- … and V at (r, i). -/
theorem v_idx (n : Fin 8192) (o : Fin 4096) (i : Fin 4096) (r : Fin 256) :
    ridx_main_v0 (idx_main_v1 (ridx_main_v2 (ix2 n o) i)) r = ix2 r i :=
  funext fun a => Fin.ext (by match a with | ⟨0, _⟩ => rfl | ⟨1, _⟩ => rfl)

/-- The two broadcasts read the bias at o, whatever the row. -/
theorem b_idx (n : Fin 8192) (o : Fin 4096) : idx_main_v3 (idx_main_v4 (ix2 n o)) = ix1 o :=
  funext fun a => Fin.ext (by match a with | ⟨0, _⟩ => rfl)

/-- THE REFERENCE'S RESULT is the layer with the weight formed first. -/
theorem result_eq (x : FVec Ideal S8192x4096 .f32) (U : FVec Ideal S4096x256 .f32) (V : FVec Ideal S256x4096 .f32)
    (b : FVec Ideal S4096 .f32) :
    val_main_v5 (F := Ideal) x U V b = LowRank.viaWeight x U V b := by
  funext j
  obtain ⟨n, o, rfl⟩ : ∃ (n : Fin 8192) (o : Fin 4096), j = ix2 n o := ⟨j 0, j 1, eq_ix2 j⟩
  rw [val_main_v5_apply, val_main_v2_apply, val_main_v4_apply, val_main_v3_apply]
  simp only [val_main_v1_apply, val_main_v0_apply, x_idx, u_idx, v_idx, b_idx]
  rfl

end Cert.ReferenceIdeal.RefValue

end
-- ==== Proof.FiniteInputs.lean ====
/-
  What the precondition says of the four arrays: every entry is a real number.

  The predicate compares |a| with +∞ at every entry a of each array, takes the conjunction over each array and then
  the conjunction of the four. On the extended reals |a| = max a (-a), and max a (-a) < +∞ exactly when a is neither
  +∞ nor -∞, that is, when a is (the image of) a real number.
-/
import proofs.«140116_j35192962023845_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Cert.Pre_finite_inputs.Facts]

/-- The scalar shape has one index. -/
instance : Subsingleton S_.Idx := ⟨fun a b => funext fun d => d.elim0⟩

/-- The word the predicate compares against denotes +∞. -/
theorem ofBits_inf : Ideal.ofBits .f32 0x7F800000#32 = (⊤ : EReal) := by simp [Ideal.ofBits, Ideal.ieee]

/-- An extended real whose absolute value is below +∞ is a real number. -/
theorem real_of_abs_lt (a : Ideal .f32)
    (h : FloatOps.cmpf .olt (FloatOps.hostAbsf a) (FloatOps.ofBits (F := Ideal) .f32 0x7F800000#32) = 1#1) : ∃ r : ℝ, a = r := by
  change BitVec.ofBool (decide (max a (-a) < Ideal.ofBits .f32 0x7F800000#32)) = 1#1 at h
  rw [ofBits_inf] at h
  have hlt : max a (-a) < (⊤ : EReal) := by
    by_contra hn
    rw [decide_eq_false hn] at h
    exact absurd h (by decide)
  induction a using EReal.rec with
  | bot => simp at hlt
  | top => simp at hlt
  | coe r => exact ⟨r, rfl⟩

/-- THE PRECONDITION READ BACK: if the predicate is all ones, every entry of x, U, V and the bias is real. -/
theorem all_real (x : FVec Ideal S8192x4096 .f32) (U : FVec Ideal S4096x256 .f32) (V : FVec Ideal S256x4096 .f32)
    (b : FVec Ideal S4096 .f32) (h : fn (F := Ideal) x U V b = fun _ => 1#1) :
    (∀ j, ∃ r : ℝ, x j = r) ∧ (∀ j, ∃ r : ℝ, U j = r) ∧ (∀ j, ∃ r : ℝ, V j = r) ∧ (∀ j, ∃ r : ℝ, b j = r) := by
  have h0 := congrFun h ValueIdx.ix0
  dsimp only [fn, fn_part1] at h0
  obtain ⟨h123, hb⟩ := IntOp.andi_eq_one.1 h0
  obtain ⟨h12, hV⟩ := IntOp.andi_eq_one.1 h123
  obtain ⟨hx, hU⟩ := IntOp.andi_eq_one.1 h12
  exact ⟨fun j => real_of_abs_lt (x j) (Host.reduce_andi_all _ _ _ _ _ hx j),
    fun j => real_of_abs_lt (U j) (Host.reduce_andi_all _ _ _ _ _ hU j),
    fun j => real_of_abs_lt (V j) (Host.reduce_andi_all _ _ _ _ _ hV j),
    fun j => real_of_abs_lt (b j) (Host.reduce_andi_all _ _ _ _ _ hb j)⟩

end Cert.Pre_finite_inputs.Finite

end
-- ==== Proof.lean ====
/-
  The low-rank linear layer  out = x · (U · V)ᵀ + bias  (x : 8192 × 4096, U : 4096 × 256, V : 256 × 4096), computed by a
  kernel that never forms the 4096 × 4096 weight, against a reference that does.

  The kernel works on 16 blocks of 512 rows of x. On a block X it forms H = X · Vᵀ (512 × 256), then H · Uᵀ + bias, so
  output (n, o) is  ∑ r, (∑ i, x (n, i) * V (r, i)) * U (o, r) + bias o  (`LowRank.viaRank`; Proof/BlockValue.lean reads
  the body's store entry by entry, Proof/KernelArray.lean puts the 16 blocks together). The reference forms W = U · V
  first and then x · Wᵀ + bias, so its output (n, o) is  ∑ i, x (n, i) * (∑ r, U (o, r) * V (r, i)) + bias o
  (`LowRank.viaWeight`; Proof/ReferenceValue.lean).

  The two are the two bracketings of a triple product. On the extended reals they agree when every factor is a real
  number (Proof/LibTripleProduct.lean) — multiplication does not distribute over a sum that meets an infinity — and
  that is what the precondition gives: every entry of every input is finite (Proof/FiniteInputs.lean). The bias is
  added last on both sides and plays no part in the law.

  The idealization rewrote no operation of the kernel, so there is nothing to preserve; the three programs run,
  terminate and leave their arguments as they were by the generated frame and run modules.
-/
import proofs.«140116_j35192962023845_2_alg».proof.Defs
import proofs.«140116_j35192962023845_2_alg».proof.Proof.Gen.Kernel
import proofs.«140116_j35192962023845_2_alg».proof.Proof.Gen.Kernel.Skeleton
import proofs.«140116_j35192962023845_2_alg».proof.Proof.Gen.Kernel.Launch
import proofs.«140116_j35192962023845_2_alg».proof.Proof.Gen.Kernel.Points
import proofs.«140116_j35192962023845_2_alg».proof.Proof.Gen.Kernel.Frame
import proofs.«140116_j35192962023845_2_alg».proof.Proof.Gen.KernelIdeal
import proofs.«140116_j35192962023845_2_alg».proof.Proof.Gen.KernelIdeal.Skeleton
import proofs.«140116_j35192962023845_2_alg».proof.Proof.Gen.KernelIdeal.Launch
import proofs.«140116_j35192962023845_2_alg».proof.Proof.Gen.KernelIdeal.Points
import proofs.«140116_j35192962023845_2_alg».proof.Proof.Gen.KernelIdeal.Frame
import proofs.«140116_j35192962023845_2_alg».proof.Proof.Gen.ReferenceIdeal
import proofs.«140116_j35192962023845_2_alg».proof.Proof.Gen.Pre_finite_inputs
import proofs.«140116_j35192962023845_2_alg».proof.Proof.Gen.KernelIdeal.Value
import proofs.«140116_j35192962023845_2_alg».proof.Proof.Gen.ReferenceIdeal.Run
import proofs.«140116_j35192962023845_2_alg».proof.Proof.Gen.ReferenceIdeal.Read
import proofs.«140116_j35192962023845_2_alg».proof.Proof.KernelArray
import proofs.«140116_j35192962023845_2_alg».proof.Proof.ReferenceValue
import proofs.«140116_j35192962023845_2_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it computes dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Over the extended reals, on finite inputs, the kernel's output (x · Vᵀ formed first) and the reference's (U · V
    formed first) are the same array: the two bracketings of the triple product agree on real factors. -/
theorem algebraic : Cert.algebraic_KernelIdeal_ReferenceIdeal := by
  intro m ρ m' ρ' hpre hagree
  refine ⟨fun c => LowRank.viaRank (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hU, hV, -⟩ := Cert.Pre_finite_inputs.Finite.all_real _ _ _ _ (hpre c)
  rw [Cert.ReferenceIdeal.Read.val_main_v5_eq, Cert.ReferenceIdeal.RefValue.result_eq,
    (hagree c).1, (hagree c).2.1, (hagree c).2.2.1, (hagree c).2.2.2]
  exact (LowRank.viaRank_eq_viaWeight _ _ _ _ hx hU hV).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
